-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel

variable [Facts]

def fn {F : FTy → Type} [FloatOps F] (main_arg0 : FVec F S8x2048x64 .f32) (main_arg1 : FVec F S8x2048x64 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  main_v8
-- ==== Kernel.lean ====
abbrev S8x2048x64 : Shape := ⟨3, ![8, 2048, 64]⟩
abbrev S8x2048x2048 : Shape := ⟨3, ![8, 2048, 2048]⟩
abbrev S8x1x2048 : Shape := ⟨3, ![8, 1, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1x1x1024 : Shape := ⟨3, ![1, 1, 1024]⟩
abbrev S1024x64 : Shape := ⟨2, ![1024, 64]⟩
abbrev S2048x64 : Shape := ⟨2, ![2048, 64]⟩
abbrev S1024 : Shape := ⟨1, ![1024]⟩
abbrev S1024x1 : Shape := ⟨2, ![1024, 1]⟩
abbrev S2048 : Shape := ⟨1, ![2048]⟩
abbrev S2048x1 : Shape := ⟨2, ![2048, 1]⟩
abbrev S64x2048 : Shape := ⟨2, ![64, 2048]⟩
abbrev S1024x2048 : Shape := ⟨2, ![1024, 2048]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x2048, .f32⟩
  | .hbm, ⟨3, _⟩ => ⟨S8x1x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x1024x2048, .f32⟩
  | .local _ .vmem, ⟨5, _⟩ => ⟨S1x1024x2048, .f32⟩
  | .local _ .vmem, ⟨6, _⟩ => ⟨S1x1x1024, .f32⟩
  | .local _ .vmem, ⟨7, _⟩ => ⟨S1x1x1024, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x64_S1024 : S1024x64.Reduces [1] S1024
  shapeCasts_S1024_S1024x1 : S1024.ShapeCasts S1024x1
  reduces_S2048x64_S2048 : S2048x64.Reduces [1] S2048
  shapeCasts_S2048_S2048x1 : S2048.ShapeCasts S2048x1
  broadcasts_S1024x1_S1024x64 : S1024x1.Broadcasts S1024x64
  broadcasts_S2048x1_S2048x64 : S2048x1.Broadcasts S2048x64
  bitsLt_bf16_f32 : FTy.bits .bf16 < FTy.bits .f32
  transposes_S2048x64_p1_0_S64x2048 : S2048x64.Transposes [1, 0] S64x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  reduces_S1024x2048_S1024 : S1024x2048.Reduces [1] S1024
  transposes_S1024x1_p1_0_S1x1024 : S1024x1.Transposes [1, 0] S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S8x2048x64.size a
  hwx0_0 : ∀ i : grid0.Coords, EltTy.bits .f32 = 32 ∨ (Rect.block (s := S8x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .f32 = 32 ∨ (Rect.block (s := S8x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x2048x2048.size a
  hwx0_2 : ∀ i : grid0.Coords, EltTy.bits .f32 = 32 ∨ (Rect.block (s := S8x2048x2048) S1x1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x2048.size a
  hwx0_3 : ∀ i : grid0.Coords, EltTy.bits .f32 = 32 ∨ (Rect.block (s := S8x1x2048) S1x1x1024.size (cc0_transform_3 i) (hinb0_3 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩
abbrev S8x1x2048 : Shape := ⟨3, ![8, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S8x2048x64, .f32⟩
  | .hbm, ⟨11, _⟩ => ⟨S8x2048x64, .f32⟩
  | .hbm, ⟨12, _⟩ => ⟨S8x2048x64, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x64, .f32⟩
  | .hbm, ⟨21, _⟩ => ⟨S8x2048x64, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S8x1x2048, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8x2048x64_S8x2048_d2 : S8x2048x64.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x64_0_1_2 : S8x2048x1.BroadcastsInDim S8x2048x64 (![0, 1, 2] : Fin 3 → Fin S8x2048x64.rank)
  reducesTo_S8x2048x2048_S8x2048_d2 : S8x2048x2048.ReducesTo [2] S8x2048
  bcast_S8x2048_S8x1x2048_0_2 : S8x2048.BroadcastsInDim S8x1x2048 (![0, 2] : Fin 2 → Fin S8x1x2048.rank)
  dot_S8x2048x64_S8x2048x64_S8x2048x2048_2_2_1_1_0_0_wf : DotDims.WF S8x2048x64 S8x2048x64 S8x2048x2048 [2] [2] [1] [1] [0] [0]

variable [Facts₀]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf

class Facts : Prop extends Facts₀ where

variable [Facts]
-- ==== Proof.Spec.lean ====
/-
  Cosine similarity of rows of 64 entries, on the extended reals.

  A row `u` has the clamped norm `max (√(Σ_d u_d²)) ε`, with `ε` the single-precision number nearest to 1e-8; the
  normalized row is `u_d / (clamped norm)`, the similarity of two rows is the inner product of their normalized
  rows, and a query row's score is the maximum, from `-∞`, of its similarities with the 2048 key rows of its batch.
  `att` and `sim` are these two quantities as whole arrays, functions of the query array and the key array.
  Nothing here depends on a program.
-/
import Idealize.ShloMosaic.PureOps.Ideal
import Idealize.ShloMosaic.Lib.ValueIdx

noncomputable section

open scoped BigOperators

namespace Cert.Cosine

open Idealize.ShloMosaic Idealize.ShloMosaic.ValueIdx

/-- The clamp of the norm: the single-precision number nearest to 1e-8, as an extended real. -/
def eps : EReal := Ideal.ofBits .f32 0x322BCC77#32

/-- The start of a maximum: `-∞`. -/
def negInf : EReal := Ideal.ofBits .f32 0xFF800000#32

/-- The clamped Euclidean norm of a row. -/
def cnorm (u : Fin 64 → EReal) : EReal := max (Ideal.sqrt (∑ d : Fin 64, u d * u d)) eps

/-- Entry `d` of the normalized row. -/
def unit (u : Fin 64 → EReal) (d : Fin 64) : EReal := Ideal.div (u d) (cnorm u)

/-- The cosine similarity of two rows: the inner product of the normalized rows. -/
def cosine (u v : Fin 64 → EReal) : EReal := ∑ d : Fin 64, unit u d * unit v d

/-- The maximum of 2048 numbers, from `-∞`. -/
def rowMax (f : Fin 2048 → EReal) : EReal := (Finset.univ : Finset (Fin 2048)).fold max negInf f

/-- Row `(b, r)` of an `[8, 2048, 64]` array. -/
def row (X : (⟨3, ![8, 2048, 64]⟩ : Shape).Idx → EReal) (b : Fin 8) (r : Fin 2048) : Fin 64 → EReal :=
  fun d => X (ix3 b r d)

/-- Row `r` of a `[1, n, 64]` block. -/
def brow {n : Nat} (P : (⟨3, ![1, n, 64]⟩ : Shape).Idx → EReal) (r : Fin n) : Fin 64 → EReal :=
  fun d => P (ix3 0 r d)

/-- The similarity matrix: entry `(b, q, k)` is the cosine similarity of query row `(b, q)` and key row `(b, k)`. -/
def att (Q Y : (⟨3, ![8, 2048, 64]⟩ : Shape).Idx → EReal) : (⟨3, ![8, 2048, 2048]⟩ : Shape).Idx → EReal :=
  fun i => cosine (row Q (i 0) (i 1)) (row Y (i 0) (i 2))

/-- The scores: entry `(b, 0, q)` is the maximum over the key rows `k` of the similarity of query row `(b, q)` and key row `(b, k)`. -/
def sim (Q Y : (⟨3, ![8, 2048, 64]⟩ : Shape).Idx → EReal) : (⟨3, ![8, 1, 2048]⟩ : Shape).Idx → EReal :=
  fun i => rowMax fun k => cosine (row Q (i 0) (i 2)) (row Y (i 0) k)

theorem att_ix3 (Q Y : (⟨3, ![8, 2048, 64]⟩ : Shape).Idx → EReal) (b : Fin 8) (q k : Fin 2048) :
    att Q Y (ix3 b q k) = cosine (row Q b q) (row Y b k) := rfl

theorem sim_ix3 (Q Y : (⟨3, ![8, 2048, 64]⟩ : Shape).Idx → EReal) (b : Fin 8) (z : Fin 1) (q : Fin 2048) :
    sim Q Y (ix3 b z q) = rowMax fun k => cosine (row Q b q) (row Y b k) := rfl

end Cert.Cosine

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.KernelPay.lean ====
/-
  The kernel body's arithmetic, read at an index.

  From its query block `P0` (1024 rows of 64) and its key block `P1` (2048 rows of 64) the body normalizes every
  row by its clamped norm — the row's sum of squares is a lane reduction, the norm is placed in a column and repeated
  along the row, and the narrowing to bf16 changes nothing on the extended reals —, transposes the normalized keys and
  multiplies: entry `(r, k)` of the product is the sum over `d` of the normalized entries' products, the cosine
  similarity of query row `r` and key row `k`. The maximum along a row of the product, from `-∞`, is the row's score.
-/
import proofs.«114048_j90924457657000_2_alg».proof.Proof.Gen.KernelIdeal.Skeleton
import proofs.«114048_j90924457657000_2_alg».proof.Proof.Spec
import proofs.«114048_j90924457657000_2_alg».proof.Proof.LibColumns
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Cosine Cert.LibColumns

/-- A `[1, n, 64]` block reshaped to an `n × 64` matrix: entry `(r, d)` is entry `(0, r, d)`. -/
theorem shapeCast_block {α : Type} {n : Nat} (P : (⟨3, ![1, n, 64]⟩ : Shape).Idx → α)
    (h : (⟨3, ![1, n, 64]⟩ : Shape).ShapeCasts ⟨2, ![n, 64]⟩) (r : Fin n) (d : Fin 64) :
    shapeCast ⟨2, ![n, 64]⟩ P h (ix2 r d) = P (ix3 0 r d) :=
  shapeCast_apply P h (ix2 r d) (ix3 0 r d) (by
    rw [Shape.rowMajor_val_three, Shape.rowMajor_val_two]
    show (0 * n + r.val) * 64 + d.val = r.val * 64 + d.val
    omega)

/-- The transpose of an `n × m` matrix: entry `(c, k)` is entry `(k, c)`. -/
theorem transpose_mat {α : Type} {n m : Nat} (v : (⟨2, ![n, m]⟩ : Shape).Idx → α)
    (h : (⟨2, ![n, m]⟩ : Shape).Transposes [1, 0] ⟨2, ![m, n]⟩) (c : Fin m) (k : Fin n) :
    transpose ⟨2, ![m, n]⟩ [1, 0] v h (ix2 c k) = v (ix2 k c) :=
  transpose_apply [1, 0] v h (ix2 c k) (ix2 k c) (fun b => by
    match b with
    | ⟨0, _⟩ => rfl
    | ⟨1, _⟩ => rfl)

/-- The rows of a block divided by their clamped norms: entry `(r, d)` is entry `d` of the normalized row `r`. -/
theorem normalized_apply {n : Nat} (P : FVec Ideal ⟨3, ![1, n, 64]⟩ .f32)
    (h1 : (⟨3, ![1, n, 64]⟩ : Shape).ShapeCasts ⟨2, ![n, 64]⟩)
    (h2 : (⟨2, ![n, 64]⟩ : Shape).Reduces [1] ⟨1, ![n]⟩)
    (hφ : FKind.Formats .f32) (hacc : (0x00000000#32 : BitVec 32) = FKind.add.neutral .f32 hφ)
    (h3 : (⟨1, ![n]⟩ : Shape).ShapeCasts ⟨2, ![n, 1]⟩)
    (h4 : (⟨2, ![n, 1]⟩ : Shape).Broadcasts ⟨2, ![n, 64]⟩) (r : Fin n) (d : Fin 64) :
    divf (shapeCast ⟨2, ![n, 64]⟩ P h1)
      (broadcastTo ⟨2, ![n, 64]⟩
        (maximumf
          (sqrt (shapeCast ⟨2, ![n, 1]⟩
            (multiReduction .add [1] ⟨1, ![n]⟩ (mulf (shapeCast ⟨2, ![n, 64]⟩ P h1) (shapeCast ⟨2, ![n, 64]⟩ P h1))
              0x00000000#32 h2 hφ hacc) h3))
          (broadcast ⟨2, ![n, 1]⟩ (Scalar.ofBits (F := Ideal) .f32 0x322BCC77#32))) h4) (ix2 r d)
      = unit (brow P r) d := by
  rw [divf_apply, shapeCast_block P h1 r d, broadcastTo_col _ h4 r d]
  show Ideal.div (P (ix3 0 r d)) (max (Ideal.sqrt (shapeCast ⟨2, ![n, 1]⟩
      (multiReduction .add [1] ⟨1, ![n]⟩ (mulf (shapeCast ⟨2, ![n, 64]⟩ P h1) (shapeCast ⟨2, ![n, 64]⟩ P h1))
        0x00000000#32 h2 hφ hacc) h3 (ix2 r 0))) (Ideal.ofBits .f32 0x322BCC77#32)) = _
  rw [shapeCast_vec_col _ h3 r, multiReduction_rows _ h2 hφ hacc r]
  simp only [mulf_apply, shapeCast_block P h1 r]
  rfl

/-- The product's left operand index at result `i`: its row is `i`'s row. -/
theorem lhs_row (i : S1024x2048.Idx) (q : dot_S1024x64_S64x2048_S1024x2048_1_0_0_1_n_n.contr.Idx) : (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide),
    dif_pos (show (0 : Fin S1024x64.rank) ∈ dot_S1024x64_S64x2048_S1024x2048_1_0_0_1_n_n.lhsNonContracting by decide)]
  rfl

/-- The product's right operand index at result `i`: its column is `i`'s column. -/
theorem rhs_col (i : S1024x2048.Idx) (q : dot_S1024x64_S64x2048_S1024x2048_1_0_0_1_n_n.contr.Idx) : (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide),
    dif_pos (show (1 : Fin S64x2048.rank) ∈ dot_S1024x64_S64x2048_S1024x2048_1_0_0_1_n_n.rhsNonContracting by decide)]
  rfl

/-- The body's matrix product into zeros: entry `(r, k)` is the sum over `d` of `A (r, d) · B (d, k)`. -/
theorem matmul_rows (A : FVec Ideal S1024x64 .bf16) (B : FVec Ideal S64x2048 .bf16) (r : Fin 1024) (k : Fin 2048) :
    matmul dot_S1024x64_S64x2048_S1024x2048_1_0_0_1_n_n none A B (constant S1024x2048 .f32 0x00000000#32) (ix2 r k)
      = ∑ d : Fin 64, A (ix2 r d) * B (ix2 d k) := by
  refine (Ideal.matmul_constant_zero_apply dot_S1024x64_S64x2048_S1024x2048_1_0_0_1_n_n none A B (ix2 r k)).trans ?_
  rw [← Equiv.sum_comp (contrEquiv1 dot_S1024x64_S64x2048_S1024x2048_1_0_0_1_n_n 64 rfl rfl).symm]
  refine Finset.sum_congr rfl fun d _ => ?_
  have hd := contrEquiv1_symm_val dot_S1024x64_S64x2048_S1024x2048_1_0_0_1_n_n 64 rfl rfl d
  have el : dot_S1024x64_S64x2048_S1024x2048_1_0_0_1_n_n.lhsIdx (ix2 r k) ((contrEquiv1 dot_S1024x64_S64x2048_S1024x2048_1_0_0_1_n_n 64 rfl rfl).symm d) = ix2 r d := funext fun a => Fin.ext (by
    match a with
    | ⟨0, _⟩ => exact lhs_row _ _
    | ⟨1, _⟩ => exact (dot_S1024x64_S64x2048_S1024x2048_1_0_0_1_n_n.lhsIdx_val_of_single rfl _ _).trans hd)
  have er : dot_S1024x64_S64x2048_S1024x2048_1_0_0_1_n_n.rhsIdx (ix2 r k) ((contrEquiv1 dot_S1024x64_S64x2048_S1024x2048_1_0_0_1_n_n 64 rfl rfl).symm d) = ix2 d k := funext fun a => Fin.ext (by
    match a with
    | ⟨0, _⟩ => exact (dot_S1024x64_S64x2048_S1024x2048_1_0_0_1_n_n.rhsIdx_val_of_single rfl _ _).trans hd
    | ⟨1, _⟩ => exact rhs_col _ _)
  rw [el, er]

/-- THE BODY'S PRODUCT at `(r, k)`: the cosine similarity of query row `r` and key row `k` of the two blocks. -/
theorem pay1_apply (P0 : Vec Ideal S1x1024x64 .f32) (P1 : Vec Ideal S1x2048x64 .f32) (r : Fin 1024) (k : Fin 2048) :
    k0_pay1 P0 P1 (ix2 r k) = cosine (brow P0 r) (brow P1 k) := by
  unfold k0_pay1
  refine (matmul_rows _ _ r k).trans ?_
  refine Finset.sum_congr rfl fun d _ => ?_
  refine congrArg₂ (· * ·) ?_ ?_
  · exact normalized_apply P0 _ _ _ _ _ _ r d
  · refine (transpose_mat _ _ d k).trans ?_
    exact normalized_apply P1 _ _ _ _ _ _ k d

/-- The maximum along row `r` of a `1024 × 2048` matrix, from `-∞`. -/
theorem rowMax_apply (M : FVec Ideal S1024x2048 .f32) (h : S1024x2048.Reduces [1] S1024) (hφ : FKind.Formats .f32)
    (hacc : (0xFF800000#32 : BitVec 32) = FKind.maximumf.neutral .f32 hφ) (r : Fin 1024) :
    multiReduction .maximumf [1] S1024 M 0xFF800000#32 h hφ hacc (ix1 r) = rowMax fun k => M (ix2 r k) :=
  (Ideal.multiReduction_maximumf_single M 0xFF800000#32 h hφ hacc (ix1 r)).trans
    (congrArg (fun f => Finset.fold max negInf f (Finset.univ : Finset (Fin 2048)))
      (funext fun k => congrArg M (lift_rows h r k)))

end Cert.KernelIdeal.Pay

end
-- ==== Proof.KernelValue.lean ====
/-
  The kernel's two result arrays after its run are the similarity matrix and the scores of its argument arrays.

  Grid point `(b, j)` loads rows `1024·j … 1024·j + 1023` of batch `b` of the queries and all 2048 rows of batch `b` of
  the keys. It writes the `1024 × 2048` block of similarities of those query rows with those key rows at rows
  `1024·j …` of batch `b` of the first result, and their 1024 row maxima at columns `1024·j …` of row `(b, 0)` of
  the second. Each block is the restriction of one whole-array function of the arguments, and the sixteen blocks of
  each result cover it, so each result array ends as that function.
-/
import proofs.«114048_j90924457657000_2_alg».proof.Proof.KernelIdealValueP
import proofs.«114048_j90924457657000_2_alg».proof.Proof.KernelPay

noncomputable section

open scoped BigOperators

namespace Cert.KernelIdeal.ArrValue

open Cert.KernelIdeal Cert.KernelIdeal.Gen Idealize.ShloMosaic Idealize.ShloMosaic.TcCoe Idealize.SL.Sem
open Idealize.ShloMosaic.ValueIdx Cert.Cosine Cert.KernelIdeal.Pay
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## What the body leaves in each output block, from its two input blocks -/

/-- The similarity block at `(0, r, k)`. -/
theorem out2_apply (x0 : Vec Ideal S1x1024x64 .f32) (x1 : Vec Ideal S1x2048x64 .f32) (y : S1x1024x2048.Idx) :
    out0_2 x0 x1 y = cosine (brow x0 (y 1)) (brow x1 (y 2)) := by
  obtain ⟨z, r, k, rfl⟩ : ∃ (z : Fin 1) (r : Fin 1024) (k : Fin 2048), y = ix3 z r k := ⟨y 0, y 1, y 2, eq_ix3 y⟩
  unfold out0_2
  rw [ValueP.canon2_eq, View.ld_unit_zero hz, View.ld_unit_zero hz]
  have e : ValueP.ix2_0 (ix3 z r k) = ix2 r k := funext fun a => by match a with | ⟨0, _⟩ => rfl | ⟨1, _⟩ => rfl
  show k0_pay1 x0 x1 (ValueP.ix2_0 (ix3 z r k)) = _
  rw [e]
  exact pay1_apply x0 x1 r k

/-- The score block at `(0, 0, r)`. -/
theorem out3_apply (x0 : Vec Ideal S1x1024x64 .f32) (x1 : Vec Ideal S1x2048x64 .f32) (y : S1x1x1024.Idx) :
    out0_3 x0 x1 y = rowMax fun k => cosine (brow x0 (y 2)) (brow x1 k) := by
  obtain ⟨z, z', r, rfl⟩ : ∃ (z z' : Fin 1) (r : Fin 1024), y = ix3 z z' r := ⟨y 0, y 1, y 2, eq_ix3 y⟩
  unfold out0_3
  rw [ValueP.canon3_eq, View.ld_unit_zero hz, View.ld_unit_zero hz]
  have e : ValueP.ix3_0 (ix3 z z' r) = ix1 r := funext fun a => by match a with | ⟨0, _⟩ => rfl
  show multiReduction .maximumf [1] S1024 (k0_pay1 x0 x1) 0xFF800000#32 reduces_S1024x2048_S1024 (.inl rfl) rfl (ValueP.ix3_0 (ix3 z z' r)) = _
  rw [e]
  refine (rowMax_apply (k0_pay1 x0 x1) reduces_S1024x2048_S1024 (.inl rfl) rfl r).trans ?_
  exact congrArg rowMax (funext fun k => pay1_apply x0 x1 r k)

/-! ## The printed index maps, decided over the sixteen grid points -/

theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0
    ∧ win0_3.index t (0 : Fin 3) = win0_2.index t (0 : Fin 3) ∧ win0_3.index t (1 : Fin 3) = 0
    ∧ win0_3.index t (2 : Fin 3) = win0_2.index t (1 : Fin 3) :=
  (by decide +kernel : ∀ t : Fin grid0.N, _)

/-- Every `(batch, row tile)` pair is some grid point's block index of the first result … -/
theorem idx_onto2 : ∀ (q0 : Fin 8) (q1 : Fin 2), ∃ t : Fin cfg0.N, win0_2.index t = ![q0.val, q1.val, 0] :=
  (by decide +kernel : ∀ (q0 : Fin 8) (q1 : Fin 2), ∃ t : Fin grid0.N, win0_2.index t = ![q0.val, q1.val, 0])

/-- … and of the second. -/
theorem idx_onto3 : ∀ (q0 : Fin 8) (q1 : Fin 2), ∃ t : Fin cfg0.N, win0_3.index t = ![q0.val, 0, q1.val] :=
  (by decide +kernel : ∀ (q0 : Fin 8) (q1 : Fin 2), ∃ t : Fin grid0.N, win0_3.index t = ![q0.val, 0, q1.val])

/-! ## What a grid point writes back is its block of the whole-array function -/

/-- Row `r` of the query block at point `t` is row `(B, R)` of the query array, for `B` the point's batch and `R` the
    row `r` of the point's row tile. -/
theorem qrow_eq (c : Dev nD) (t : Fin cfg0.N) (r : Fin 1024) (B : Fin 8) (R : Fin 2048)
    (hB : B.val = win0_2.index t (0 : Fin 3)) (hR : R.val = win0_2.index t (1 : Fin 3) * 1024 + r.val) :
    brow (iblk m c 0 t) r = row (V m c main_arg0) B R := by
  obtain ⟨e00, e01, e02, e10, e11, e12, e22, e30, e31, e32⟩ := idx_facts t
  funext d
  show V m c main_arg0 (((cfg0.win 0).blk t).view.emb (ix3 0 r d)) = V m c main_arg0 (ix3 B R d)
  refine congrArg (V m c main_arg0) (funext fun a => Fin.ext ?_)
  match a with
  | ⟨0, _⟩ => show win0_0.index t (0 : Fin 3) * 1 + 1 * 0 = B.val; omega
  | ⟨1, _⟩ => show win0_0.index t (1 : Fin 3) * 1024 + 1 * r.val = R.val; omega
  | ⟨2, _⟩ => show win0_0.index t (2 : Fin 3) * 64 + 1 * d.val = d.val; omega

/-- Row `k` of the key block at point `t` is row `(B, k)` of the key array, for `B` the point's batch (`K` is `k`). -/
theorem krow_eq (c : Dev nD) (t : Fin cfg0.N) (k : Fin 2048) (B : Fin 8) (K : Fin 2048)
    (hB : B.val = win0_2.index t (0 : Fin 3)) (hK : K.val = k.val) :
    brow (iblk m c 1 t) k = row (V m c main_arg1) B K := by
  obtain ⟨e00, e01, e02, e10, e11, e12, e22, e30, e31, e32⟩ := idx_facts t
  funext d
  show V m c main_arg1 (((cfg0.win 1).blk t).view.emb (ix3 0 k d)) = V m c main_arg1 (ix3 B K d)
  refine congrArg (V m c main_arg1) (funext fun a => Fin.ext ?_)
  match a with
  | ⟨0, _⟩ => show win0_1.index t (0 : Fin 3) * 1 + 1 * 0 = B.val; omega
  | ⟨1, _⟩ => show win0_1.index t (1 : Fin 3) * 2048 + 1 * k.val = K.val; omega
  | ⟨2, _⟩ => show win0_1.index t (2 : Fin 3) * 64 + 1 * d.val = d.val; omega

/-- WHAT POINT `t` WRITES BACK to the first result is block `t` of the similarity matrix of the argument arrays. -/
theorem flushed2_eq (c : Dev nD) (t : Fin cfg0.N) :
    (dats m 0 c).flushed 2 t
      = ((cfg0.win 2).blk t).view.read (Elt Ideal) (att (V m c main_arg0) (V m c main_arg1)) := by
  obtain ⟨e00, e01, e02, e10, e11, e12, e22, e30, e31, e32⟩ := idx_facts t
  rw [ValueP.flushed2]
  funext y
  show out0_2 (iblk m c 0 t) (iblk m c 1 t) y
    = cosine (row (V m c main_arg0) (((cfg0.win 2).blk t).view.emb y 0) (((cfg0.win 2).blk t).view.emb y 1))
        (row (V m c main_arg1) (((cfg0.win 2).blk t).view.emb y 0) (((cfg0.win 2).blk t).view.emb y 2))
  refine (out2_apply _ _ y).trans ?_
  have hy0 : (y 0).val < 1 := (y 0).isLt
  have hB : (((cfg0.win 2).blk t).view.emb y 0).val = win0_2.index t (0 : Fin 3) := by
    show win0_2.index t (0 : Fin 3) * 1 + 1 * (y 0).val = _; omega
  have hR : (((cfg0.win 2).blk t).view.emb y 1).val = win0_2.index t (1 : Fin 3) * 1024 + (y 1).val := by
    show win0_2.index t (1 : Fin 3) * 1024 + 1 * (y 1).val = _; omega
  have hK : (((cfg0.win 2).blk t).view.emb y 2).val = (y 2).val := by
    show win0_2.index t (2 : Fin 3) * 2048 + 1 * (y 2).val = _; omega
  rw [qrow_eq m c t (y 1) _ _ hB hR, krow_eq m c t (y 2) _ _ hB hK]

/-- WHAT POINT `t` WRITES BACK to the second result is block `t` of the scores of the argument arrays. -/
theorem flushed3_eq (c : Dev nD) (t : Fin cfg0.N) :
    (dats m 0 c).flushed 3 t
      = ((cfg0.win 3).blk t).view.read (Elt Ideal) (sim (V m c main_arg0) (V m c main_arg1)) := by
  obtain ⟨e00, e01, e02, e10, e11, e12, e22, e30, e31, e32⟩ := idx_facts t
  rw [ValueP.flushed3]
  funext y
  show out0_3 (iblk m c 0 t) (iblk m c 1 t) y
    = rowMax fun k => cosine (row (V m c main_arg0) (((cfg0.win 3).blk t).view.emb y 0) (((cfg0.win 3).blk t).view.emb y 2))
        (row (V m c main_arg1) (((cfg0.win 3).blk t).view.emb y 0) k)
  refine (out3_apply _ _ y).trans ?_
  have hy0 : (y 0).val < 1 := (y 0).isLt
  have hB : (((cfg0.win 3).blk t).view.emb y 0).val = win0_2.index t (0 : Fin 3) := by
    show win0_3.index t (0 : Fin 3) * 1 + 1 * (y 0).val = _; omega
  have hR : (((cfg0.win 3).blk t).view.emb y 2).val = win0_2.index t (1 : Fin 3) * 1024 + (y 2).val := by
    show win0_3.index t (2 : Fin 3) * 1024 + 1 * (y 2).val = _; omega
  rw [qrow_eq m c t (y 2) _ _ hB hR]
  exact congrArg rowMax (funext fun k => congrArg (cosine _) (krow_eq m c t k _ k hB rfl))

/-! ## The sixteen blocks of each result cover it -/

/-- An index of the first result is in point `t`'s block iff each coordinate is in the block's range on its axis. -/
theorem mem_blk2 (t : Fin cfg0.N) (i : S8x2048x2048.Idx) :
    i ∈ ((cfg0.win 2).blk t).view.set ↔ ∀ a : Fin 3, win0_2.index t a * S1x1024x2048.size a ≤ (i a).val
      ∧ (i a).val < win0_2.index t a * S1x1024x2048.size a + S1x1024x2048.size a := by
  show i ∈ ((View.whole main_v0_0).slice (win0_2.rect t)).set ↔ _
  rw [View.set_slice_whole, Rect.mem_set_unit]
  exact Iff.rfl

/-- The same for the second result. -/
theorem mem_blk3 (t : Fin cfg0.N) (i : S8x1x2048.Idx) :
    i ∈ ((cfg0.win 3).blk t).view.set ↔ ∀ a : Fin 3, win0_3.index t a * S1x1x1024.size a ≤ (i a).val
      ∧ (i a).val < win0_3.index t a * S1x1x1024.size a + S1x1x1024.size a := by
  show i ∈ ((View.whole main_v0_1).slice (win0_3.rect t)).set ↔ _
  rw [View.set_slice_whole, Rect.mem_set_unit]
  exact Iff.rfl

/-- Entry `(b, q, k)` of the first result is in the block of the point `(b, q / 1024)`. -/
theorem cover2 (i : S8x2048x2048.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 2048 := (i 2).isLt
  obtain ⟨t, ht⟩ := idx_onto2 ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 2048 ≤ (i 2).val ∧ (i 2).val < win0_2.index t (2 : Fin 3) * 2048 + 2048; omega

/-- Entry `(b, 0, q)` of the second result is in the block of the point `(b, q / 1024)`. -/
theorem cover3 (i : S8x1x2048.Idx) :
    ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 2048 := (i 2).isLt
  obtain ⟨t, ht⟩ := idx_onto3 ⟨(i 0).val, hi0⟩ ⟨(i 2).val / 1024, by omega⟩
  have q0 : win0_3.index t (0 : Fin 3) = (i 0).val := congrFun ht 0
  have q1 : win0_3.index t (1 : Fin 3) = 0 := congrFun ht 1
  have q2 : win0_3.index t (2 : Fin 3) = (i 2).val / 1024 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1024 ≤ (i 2).val ∧ (i 2).val < win0_3.index t (2 : Fin 3) * 1024 + 1024; omega

/-! ## The arrays after the run -/

/-- The first result array after the run is the similarity matrix of the argument arrays. -/
theorem final2 (c : Dev nD) :
    (dats m 0 c).arrAt 2 cfg0.N = att (m ((c : Thread nD τ).loc main_arg0)) (m ((c : Thread nD τ).loc main_arg1)) :=
  (dats m 0 c).arrAt_eq_of_cover 2 (att (V m c main_arg0) (V m c main_arg1)) (fun t _ => flushed2_eq m c t) cover2

/-- The second result array after the run is the array of scores of the argument arrays. -/
theorem final3 (c : Dev nD) :
    (dats m 0 c).arrAt 3 cfg0.N = sim (m ((c : Thread nD τ).loc main_arg0)) (m ((c : Thread nD τ).loc main_arg1)) :=
  (dats m 0 c).arrAt_eq_of_cover 3 (sim (V m c main_arg0) (V m c main_arg1)) (fun t _ => flushed3_eq m c t) cover3

/-- The kernel's run: every weakly fair execution terminates with the two results at the similarity matrix and the
    scores of the arguments, the arguments unchanged. -/
theorem run : θ_run defs (onTc (τ := τ) (main (F := Ideal))) ⟨m, fun _ => 0, ρ⟩ fun r => ∀ c : Dev nD,
      r.2.mem ((c : Thread nD τ).loc main_v0_0) = att (m ((c : Thread nD τ).loc main_arg0)) (m ((c : Thread nD τ).loc main_arg1))
      ∧ r.2.mem ((c : Thread nD τ).loc main_v0_1) = sim (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (ValueP.run_blocks m ρ)

end Cert.KernelIdeal.ArrValue

end
-- ==== Proof.RefValue.lean ====
/-
  The reference's two results, read index by index, are the similarity matrix and the scores.

  Entry `(b, r, d)` of the normalized query array is the query entry divided by the clamped norm of its row — the
  reference's sum over the 64 entries starts from zero, which adds nothing —, and likewise for the keys; the batched
  product at `(b, q, k)` sums the products of the normalized entries over `d`, which is the cosine similarity of the two
  rows; the reduction over the last axis at `(b, q)` folds the maximum from `-∞` over `k`, and the last operation
  only places it at `(b, 0, q)`.
-/
import proofs.«114048_j90924457657000_2_alg».proof.Proof.Gen.ReferenceIdeal.Read
import proofs.«114048_j90924457657000_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Cosine

/-- The normalized query array at `(b, r, d)`. -/
theorem unitQ_apply (X : (⟨S8x2048x64, .f32⟩ : BufTy).Contents (Elt Ideal)) (b : Fin 8) (r : Fin 2048) (d : Fin 64) :
    val_main_v7 (F := Ideal) X (ix3 b r d) = unit (row X b r) d := by
  have e : ∀ k : Fin 64, idx_main_v1 (idx_main_v2 (idx_main_v6 (ix3 b r d))) k = ix3 b r k := fun k =>
    funext fun a => by match a with | ⟨0, _⟩ => rfl | ⟨1, _⟩ => rfl | ⟨2, _⟩ => rfl
  rw [val_main_v7_apply, val_main_v6_apply, val_main_v5_apply, val_main_v3_apply, val_main_v2_apply, val_main_v1_apply,
    val_main_v4_apply, val_main_cst_0_apply, val_main_cst_apply]
  simp only [val_main_v0_apply, e]
  show Ideal.div (X (ix3 b r d)) (max (Ideal.sqrt (Ideal.ofBits .f32 0x00000000#32 + ∑ k : Fin 64, X (ix3 b r k) * X (ix3 b r k))) (Ideal.ofBits .f32 0x322BCC77#32)) = _
  rw [Ideal.ofBits_zero_f32, zero_add]
  rfl

/-- The normalized key array at `(b, r, d)`. -/
theorem unitY_apply (X : (⟨S8x2048x64, .f32⟩ : BufTy).Contents (Elt Ideal)) (b : Fin 8) (r : Fin 2048) (d : Fin 64) :
    val_main_v15 (F := Ideal) X (ix3 b r d) = unit (row X b r) d := by
  have e : ∀ k : Fin 64, idx_main_v9 (idx_main_v10 (idx_main_v14 (ix3 b r d))) k = ix3 b r k := fun k =>
    funext fun a => by match a with | ⟨0, _⟩ => rfl | ⟨1, _⟩ => rfl | ⟨2, _⟩ => rfl
  rw [val_main_v15_apply, val_main_v14_apply, val_main_v13_apply, val_main_v11_apply, val_main_v10_apply, val_main_v9_apply,
    val_main_v12_apply, val_main_cst_2_apply, val_main_cst_1_apply]
  simp only [val_main_v8_apply, e]
  show Ideal.div (X (ix3 b r d)) (max (Ideal.sqrt (Ideal.ofBits .f32 0x00000000#32 + ∑ k : Fin 64, X (ix3 b r k) * X (ix3 b r k))) (Ideal.ofBits .f32 0x322BCC77#32)) = _
  rw [Ideal.ofBits_zero_f32, zero_add]
  rfl

/-- The batched product at `(b, q, k)` is the cosine similarity of query row `(b, q)` and key row `(b, k)`. -/
theorem att_apply (Q Y : (⟨S8x2048x64, .f32⟩ : BufTy).Contents (Elt Ideal)) (b : Fin 8) (q k : Fin 2048) :
    val_main_v16 (F := Ideal) Q Y (ix3 b q k) = cosine (row Q b q) (row Y b k) := by
  rw [val_main_v16_apply]
  refine Finset.sum_congr rfl fun d _ => ?_
  have el : lidx_main_v16 (ix3 b q k) d = ix3 b q d :=
    funext fun a => by match a with | ⟨0, _⟩ => rfl | ⟨1, _⟩ => rfl | ⟨2, _⟩ => rfl
  have er : ridx_main_v16 (ix3 b q k) d = ix3 b k d :=
    funext fun a => by match a with | ⟨0, _⟩ => rfl | ⟨1, _⟩ => rfl | ⟨2, _⟩ => rfl
  rw [el, er, unitQ_apply, unitY_apply]

/-- The reference's first result is the similarity matrix. -/
theorem att_eq (Q Y : (⟨S8x2048x64, .f32⟩ : BufTy).Contents (Elt Ideal)) :
    val_main_v16 (F := Ideal) Q Y = att Q Y := by
  funext i
  obtain ⟨b, q, k, rfl⟩ : ∃ (b : Fin 8) (q k : Fin 2048), i = ix3 b q k := ⟨i 0, i 1, i 2, eq_ix3 i⟩
  exact att_apply Q Y b q k

/-- The index `(b, q)` of the reduced array with `k` put back on the reduced axis is `(b, q, k)`. -/
theorem lift_last (h : S8x2048x2048.Reduces [2] S8x2048) (b : Fin 8) (q k : Fin 2048) :
    h.lift (ix2 b q) k = ix3 b q k := by
  funext a
  apply Fin.ext
  match a with
  | ⟨0, _⟩ => rfl
  | ⟨1, _⟩ => rfl
  | ⟨2, _⟩ => rfl

/-- The reference's second result at `(b, 0, q)` is the maximum over the key rows. -/
theorem sim_apply (Q Y : (⟨S8x2048x64, .f32⟩ : BufTy).Contents (Elt Ideal)) (b : Fin 8) (z : Fin 1) (q : Fin 2048) :
    val_main_v18 (F := Ideal) Q Y (ix3 b z q) = rowMax fun k => cosine (row Q b q) (row Y b k) := by
  have hr : S8x2048x2048.Reduces [2] S8x2048 := by decide
  have ei : idx_main_v18 (ix3 b z q) = ix2 b q :=
    funext fun a => by match a with | ⟨0, _⟩ => rfl | ⟨1, _⟩ => rfl
  rw [val_main_v18_apply, ei]
  unfold val_main_v17
  rw [Host.reduce_eq_fold_single FloatOps.maximumf _ _ reducesTo_S8x2048x2048_S8x2048_d2 hr h_S_]
  have hf : (val_main_v16 (F := Ideal) Q Y ∘ hr.lift (ix2 b q)) = fun k : Fin 2048 => cosine (row Q b q) (row Y b k) :=
    funext fun k => (congrArg (val_main_v16 (F := Ideal) Q Y) (lift_last hr b q k)).trans (att_apply Q Y b q k)
  exact congrArg (fun f => Finset.fold max negInf f (Finset.univ : Finset (Fin 2048))) hf

/-- The reference's second result is the array of scores. -/
theorem sim_eq (Q Y : (⟨S8x2048x64, .f32⟩ : BufTy).Contents (Elt Ideal)) :
    val_main_v18 (F := Ideal) Q Y = sim Q Y := by
  funext i
  obtain ⟨b, z, q, rfl⟩ : ∃ (b : Fin 8) (z : Fin 1) (q : Fin 2048), i = ix3 b z q := ⟨i 0, i 1, i 2, eq_ix3 i⟩
  exact sim_apply Q Y b z q

end Cert.ReferenceIdeal.RefValue

end
-- ==== Proof.lean ====
/-
  The kernel computes, for eight batches of 2048 query rows and 2048 key rows of 64 entries each, the matrix of cosine
  similarities of every query row with every key row of its batch (each row divided by its norm, the norm clamped
  below at `ε`, then the inner products) and, for every query row, the maximum of its similarities. It does so tile
  by tile: a grid point takes 1024 query rows and all key rows of one batch. The reference normalizes whole arrays,
  multiplies batch by batch and takes the maximum along the last axis. On the extended reals the two are the same
  functions of the arguments, index by index: both sides are written with the same operations (a square root, a
  maximum with `ε`, a quotient, a sum of 64 products, a maximum of 2048 numbers from `-∞`), the narrowing to bf16
  is the identity there, and a sum from zero adds nothing. No law of arithmetic beyond `0 + x = x` is used, so the
  finiteness of the inputs is never opened.

  The frames of the two kernel programs are the generated ones; the reference's frame is its generated run with the
  results dropped. The idealization rewrote no operation, so there is nothing to preserve.
-/
import proofs.«114048_j90924457657000_2_alg».proof.Defs
import proofs.«114048_j90924457657000_2_alg».proof.Proof.Gen.Kernel
import proofs.«114048_j90924457657000_2_alg».proof.Proof.Gen.Kernel.Skeleton
import proofs.«114048_j90924457657000_2_alg».proof.Proof.Gen.Kernel.Launch
import proofs.«114048_j90924457657000_2_alg».proof.Proof.Gen.Kernel.Points
import proofs.«114048_j90924457657000_2_alg».proof.Proof.Gen.Kernel.Frame
import proofs.«114048_j90924457657000_2_alg».proof.Proof.Gen.KernelIdeal
import proofs.«114048_j90924457657000_2_alg».proof.Proof.Gen.KernelIdeal.Skeleton
import proofs.«114048_j90924457657000_2_alg».proof.Proof.Gen.KernelIdeal.Launch
import proofs.«114048_j90924457657000_2_alg».proof.Proof.Gen.KernelIdeal.Points
import proofs.«114048_j90924457657000_2_alg».proof.Proof.Gen.KernelIdeal.Frame
import proofs.«114048_j90924457657000_2_alg».proof.Proof.Gen.ReferenceIdeal
import proofs.«114048_j90924457657000_2_alg».proof.Proof.Gen.Pre_finite_inputs
import proofs.«114048_j90924457657000_2_alg».proof.Proof.KernelIdealValueP
import proofs.«114048_j90924457657000_2_alg».proof.Proof.Gen.ReferenceIdeal.Run
import proofs.«114048_j90924457657000_2_alg».proof.Proof.Gen.ReferenceIdeal.Read
import proofs.«114048_j90924457657000_2_alg».proof.Proof.KernelValue
import proofs.«114048_j90924457657000_2_alg».proof.Proof.RefValue
import Idealize.ShloMosaic.Adequacy
import Idealize.ShloMosaic.Init

noncomputable section

namespace Cert.Proof

open Idealize.ShloMosaic Idealize.ShloMosaic.TcCoe Idealize.SL.Sem Cert.Cosine

theorem frame_k : Cert.frame_Kernel := fun m ρ _ => Cert.Kernel.Gen.frame m ρ

theorem frame_ki : Cert.frame_KernelIdeal := fun m ρ _ => Cert.KernelIdeal.Gen.frame m ρ

/-- The reference's run, the results dropped. -/
theorem frame_ri : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

/-- Both programs end with the similarity matrix and the scores of their (equal) arguments. -/
theorem algebraic : Cert.algebraic_KernelIdeal_ReferenceIdeal := by
  intro m ρ m' ρ' _ hagree
  refine ⟨fun c => att (m ((c : Thread Cert.KernelIdeal.nD Cert.KernelIdeal.τ).loc Cert.KernelIdeal.main_arg0))
      (m ((c : Thread Cert.KernelIdeal.nD Cert.KernelIdeal.τ).loc Cert.KernelIdeal.main_arg1)),
    fun c => sim (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrValue.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v16_eq, Cert.ReferenceIdeal.RefValue.att_eq, (hagree c).1, (hagree c).2]
  · rw [(h c).2.1, Cert.ReferenceIdeal.Read.val_main_v18_eq, Cert.ReferenceIdeal.RefValue.sim_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
